-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096 : Shape := ⟨2, ![16, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩

class Facts : Prop where
  bcast_S_S16x4096 : S_.BroadcastsInDim S16x4096 (![] : Fin 0 → Fin S16x4096.rank)
  reducesTo_S16x4096_S_d0_1 : S16x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S16x4096 .f32) (main_arg1 : IVec S11008x4096 32) (main_arg2 : FVec F S11008x32 .f32) (main_arg3 : FVec F S11008 .f32) : IVec S_ 1 :=
  let main_v0 : FVec F S16x4096 .f32 := Host.absf main_arg0
  let main_cst : FVec F S_ .f32 := constant S_ .f32 0x7F800000#32
  let main_v1 : FVec F S16x4096 .f32 := broadcastInDim S16x4096 ![] bcast_S_S16x4096 main_cst
  let main_v2 : IVec S16x4096 1 := cmpf .olt main_v0 main_v1
  let main_c : IVec S_ 1 := constantI S_ 1 1#1
  let main_v3 : IVec S_ 1 := (fun x v => Host.reduce IntOp.andi x v reducesTo_S16x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S16x4096 : Shape := ⟨2, ![16, 4096]⟩
abbrev S11008x4096 : Shape := ⟨2, ![11008, 4096]⟩
abbrev S11008x32 : Shape := ⟨2, ![11008, 32]⟩
abbrev S11008 : Shape := ⟨1, ![11008]⟩
abbrev S1x11008 : Shape := ⟨2, ![1, 11008]⟩
abbrev S16x11008 : Shape := ⟨2, ![16, 11008]⟩
abbrev S256x4096 : Shape := ⟨2, ![256, 4096]⟩
abbrev S256x32 : Shape := ⟨2, ![256, 32]⟩
abbrev S1x256 : Shape := ⟨2, ![1, 256]⟩
abbrev S16x256 : Shape := ⟨2, ![16, 256]⟩
abbrev S256x32x128 : Shape := ⟨3, ![256, 32, 128]⟩
abbrev S256x32x1 : Shape := ⟨3, ![256, 32, 1]⟩

abbrev nBuf : Space → Nat
  | .hbm => 6
  | .vmem => 9
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008x32, .f32⟩
  | .hbm, ⟨3, _⟩ => ⟨S11008, .f32⟩
  | .hbm, ⟨4, _⟩ => ⟨S1x11008, .f32⟩
  | .hbm, ⟨5, _⟩ => ⟨S16x11008, .f32⟩
  | .local _ .vmem, ⟨0, _⟩ => ⟨S16x4096, .f32⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S1x256, .f32⟩
  | .local _ .vmem, ⟨6, _⟩ => ⟨S1x256, .f32⟩
  | .local _ .vmem, ⟨7, _⟩ => ⟨S16x256, .f32⟩
  | .local _ .vmem, ⟨8, _⟩ => ⟨S16x256, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008_S1x11008 : S11008.ShapeCasts S1x11008
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  bitsLt_bf16_f32 : FTy.bits .bf16 < FTy.bits .f32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S16x4096_S16x4096_0_0 : ∀ a, (![0, 0] : Fin 2 → Nat) a + S16x4096.size a ≤ S16x4096.size a
  h_S16x4096 : 0 < S16x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S16x256 : S1x256.Broadcasts S16x256
  inb_S16x256_S16x256_0_0 : ∀ a, (![0, 0] : Fin 2 → Nat) a + S16x256.size a ≤ S16x256.size a
  h_S16x256 : 0 < S16x256.numel
  dot_S16x4096_S256x4096_S16x256_1_1_0_0_n_n_wf : DotDims.WF S16x4096 S256x4096 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x4096.size a ≤ S16x4096.size a
  hwx0_0 : ∀ i : grid0.Coords, EltTy.bits .f32 = 32 ∨ (Rect.block (s := S16x4096) S16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x256.size a ≤ S16x11008.size a
  hwx0_4 : ∀ i : grid0.Coords, EltTy.bits .f32 = 32 ∨ (Rect.block (s := S16x11008) S16x256.size (cc0_transform_4 i) (hinb0_4 i)).WholeWords (EltTy.packing .f32)

variable [Facts₀]

def dot_S16x4096_S256x4096_S16x256_1_1_0_0_n_n : DotDims S16x4096 S256x4096 S16x256 where
  lhsContracting := [1]
  rhsContracting := [1]
  lhsNonContracting := [0]
  rhsNonContracting := [0]
  lhsBatch := []
  rhsBatch := []
  wf := dot_S16x4096_S256x4096_S16x256_1_1_0_0_n_n_wf

abbrev win0_0 : Pipeline.Window sig grid0 :=
  Pipeline.Window.ofSpec (Memref.whole main_arg0) S16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16x4096 : Shape := ⟨2, ![16, 4096]⟩
abbrev S11008x4096 : Shape := ⟨2, ![11008, 4096]⟩
abbrev S11008x32 : Shape := ⟨2, ![11008, 32]⟩
abbrev S11008 : Shape := ⟨1, ![11008]⟩
abbrev S_ : Shape := ⟨0, ![]⟩
abbrev S11008x32x128 : Shape := ⟨3, ![11008, 32, 128]⟩
abbrev S11008x32x1 : Shape := ⟨3, ![11008, 32, 1]⟩
abbrev S4096x11008 : Shape := ⟨2, ![4096, 11008]⟩
abbrev S16x11008 : Shape := ⟨2, ![16, 11008]⟩
abbrev S1x11008 : Shape := ⟨2, ![1, 11008]⟩

abbrev nBuf : Space → Nat
  | .hbm => 18
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S11008x4096, .i32⟩
  | .hbm, ⟨2, _⟩ => ⟨S11008x32, .f32⟩
  | .hbm, ⟨3, _⟩ => ⟨S11008, .f32⟩
  | .hbm, ⟨4, _⟩ => ⟨S11008x4096, .f32⟩
  | .hbm, ⟨5, _⟩ => ⟨S_, .f32⟩
  | .hbm, ⟨6, _⟩ => ⟨S11008x4096, .f32⟩
  | .hbm, ⟨7, _⟩ => ⟨S11008x4096, .f32⟩
  | .hbm, ⟨8, _⟩ => ⟨S11008x32x128, .f32⟩
  | .hbm, ⟨9, _⟩ => ⟨S11008x32x1, .f32⟩
  | .hbm, ⟨10, _⟩ => ⟨S11008x32x128, .f32⟩
  | .hbm, ⟨11, _⟩ => ⟨S11008x32x128, .f32⟩
  | .hbm, ⟨12, _⟩ => ⟨S11008x4096, .f32⟩
  | .hbm, ⟨13, _⟩ => ⟨S4096x11008, .f32⟩
  | .hbm, ⟨14, _⟩ => ⟨S16x11008, .f32⟩
  | .hbm, ⟨15, _⟩ => ⟨S1x11008, .f32⟩
  | .hbm, ⟨16, _⟩ => ⟨S16x11008, .f32⟩
  | .hbm, ⟨17, _⟩ => ⟨S16x11008, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S16x11008_0_1 : S1x11008.BroadcastsInDim S16x11008 (![0, 1] : Fin 2 → Fin S16x11008.rank)
  dot_S16x4096_S4096x11008_S16x11008_1_0_0_1_n_n_wf : DotDims.WF S16x4096 S4096x11008 S16x11008 [1] [0] [0] [1] [] []

variable [Facts₀]

def dot_S16x4096_S4096x11008_S16x11008_1_0_0_1_n_n : DotDims S16x4096 S4096x11008 S16x11008 where
  lhsContracting := [1]
  rhsContracting := [0]
  lhsNonContracting := [0]
  rhsNonContracting := [1]
  lhsBatch := []
  rhsBatch := []
  wf := dot_S16x4096_S4096x11008_S16x11008_1_0_0_1_n_n_wf

class Facts : Prop extends Facts₀ where

variable [Facts]
-- ==== Proof.GroupedDot.lean ====
/-
  The number both programs compute for one output entry, over the extended reals.

  A weight matrix is kept as integer codes `q[n, k]` (output row `n`, input `k < 4096`) and one scale `s[n, g]`
  for each row and each group `g = k / 128` of 128 consecutive inputs (32 groups). The weight the codes stand for is
  `w[n, k] = (q[n, k] - 8) · s[n, k / 128]`, the code read as the integer it is, and an output entry is the dot product
  of a row of `x` with a row of `w`:  `Σ_k x[k] · ((q[k] - 8) · s[k / 128])`.
  `dotRow` is that sum for one row of `x`, one row of codes and one row of scales; the bias is added by its users.
  The centre `8` is spelt by a 16-bit pattern in one program and by a 32-bit pattern in the other: both denote the
  real number 8 (`eight_bf16`, `eight_f32`).
-/
import Idealize.ShloMosaic.PureOps.Ideal
import Idealize.ShloMosaic.Lib.ValueIdx

noncomputable section

namespace Cert.GroupedDot

open Idealize.ShloMosaic

/-- The group of 128 consecutive inputs that input `k` lies in. -/
def grp (k : Fin 4096) : Fin 32 := ⟨k.val / 128, by have := k.isLt; omega⟩

theorem grp_val (k : Fin 4096) : (grp k).val = k.val / 128 := rfl

/-- One dequantized weight: the code, read as a signed integer, centred at 8 and scaled by its group's scale. -/
def weight (q : Fin 4096 → BitVec 32) (s : Fin 32 → EReal) (k : Fin 4096) : EReal :=
  ((((q k).toInt : ℝ) : EReal) - ((8 : ℝ) : EReal)) * s (grp k)

/-- The dot product of a row of `x` with the dequantized row of weights. -/
def dotRow (x : Fin 4096 → EReal) (q : Fin 4096 → BitVec 32) (s : Fin 32 → EReal) : EReal :=
  ∑ k : Fin 4096, x k * weight q s k

/-- Rows that agree entry by entry have the same dot product. -/
theorem dotRow_congr {x x' : Fin 4096 → EReal} {q q' : Fin 4096 → BitVec 32} {s s' : Fin 32 → EReal}
    (hx : ∀ k, x k = x' k) (hq : ∀ k, q k = q' k) (hs : ∀ g, s g = s' g) : dotRow x q s = dotRow x' q' s' := by
  rw [funext hx, funext hq, funext hs]

/-- One entry of the result: row `p` of `x` against row `n` of the dequantized weights, plus the bias of row `n`. -/
def outAt (X : (⟨2, ![16, 4096]⟩ : Shape).Idx → EReal) (Q : (⟨2, ![11008, 4096]⟩ : Shape).Idx → BitVec 32)
    (S : (⟨2, ![11008, 32]⟩ : Shape).Idx → EReal) (B : (⟨1, ![11008]⟩ : Shape).Idx → EReal) (p : Fin 16) (n : Fin 11008) : EReal :=
  dotRow (fun k => X (ValueIdx.ix2 p k)) (fun k => Q (ValueIdx.ix2 n k)) (fun g => S (ValueIdx.ix2 n g)) + B (ValueIdx.ix1 n)

/-- The whole result, `x · wᵀ + bias`, as one function of the four arrays, index by index. -/
def out (X : (⟨2, ![16, 4096]⟩ : Shape).Idx → EReal) (Q : (⟨2, ![11008, 4096]⟩ : Shape).Idx → BitVec 32)
    (S : (⟨2, ![11008, 32]⟩ : Shape).Idx → EReal) (B : (⟨1, ![11008]⟩ : Shape).Idx → EReal) :
    (⟨2, ![16, 11008]⟩ : Shape).Idx → EReal := fun i =>
  outAt X Q S B ⟨(i 0).val, (i 0).isLt⟩ ⟨(i 1).val, (i 1).isLt⟩

theorem out_ix2 (X : (⟨2, ![16, 4096]⟩ : Shape).Idx → EReal) (Q : (⟨2, ![11008, 4096]⟩ : Shape).Idx → BitVec 32)
    (S : (⟨2, ![11008, 32]⟩ : Shape).Idx → EReal) (B : (⟨1, ![11008]⟩ : Shape).Idx → EReal) (p : Fin 16) (n : Fin 11008) :
    out X Q S B (ValueIdx.ix2 p n) = outAt X Q S B p n := rfl

/-- The 16-bit pattern `0x4100` denotes 8. -/
theorem eight_bf16 : Ideal.ofBits .bf16 0x4100#16 = ((8 : ℝ) : EReal) := by
  simp [Ideal.ofBits, Ideal.ieee, -EReal.coe_mul]; norm_num

/-- The 32-bit pattern `0x41000000` denotes 8. -/
theorem eight_f32 : Ideal.ofBits .f32 0x41000000#32 = ((8 : ℝ) : EReal) := by
  simp [Ideal.ofBits, Ideal.ieee, -EReal.coe_mul]; norm_num

end Cert.GroupedDot

end
-- ==== Proof.RefRows.lean ====
/-
  The reference, entry by entry.

  The reference converts the codes, subtracts 8, views each row of 4096 as 32 groups of 128, multiplies every group by
  its scale, views the rows flat again, transposes, and contracts `x` with the transposed weights; then it adds the bias
  broadcast over the 16 rows. Read at the index `(p, n)`, the contraction is the sum over `k` of `x[p, k]` times the
  weight at `(n, k)`: flattening `(n, k)` to `n · 4096 + k` and splitting that position as `(n, k / 128, k % 128)`
  gives back row `n`, group `k / 128`, and flattening it once more gives back `(n, k)`. So the reference's result is
  `GroupedDot.out` of the four arrays.
-/
import proofs.«172426_j72997264163016_2_alg».proof.Proof.Gen.ReferenceIdeal.Read
import proofs.«172426_j72997264163016_2_alg».proof.Proof.GroupedDot

noncomputable section

namespace Cert.ReferenceIdeal.Rows

open Cert.ReferenceIdeal Cert.ReferenceIdeal.Gen Cert.ReferenceIdeal.Read Idealize.ShloMosaic Idealize.ShloMosaic.ValueIdx
open Cert.GroupedDot

/-- The left operand of the contraction at `(p, n)`, `k` is `x` at `(p, k)`. -/
theorem lidx_eq (p : Fin 16) (n : Fin 11008) (k : Fin 4096) :
    lidx_main_v9 (ix2 p n) k = ix2 p k :=
  funext fun a => Fin.ext (by match a with | ⟨0, _⟩ => rfl | ⟨1, _⟩ => rfl)

/-- The transposed, re-flattened weight at `(k, n)` reads the codes at `(n, k)`. -/
theorem code_idx_eq (p : Fin 16) (n : Fin 11008) (k : Fin 4096) :
    idx_main_v3 (idx_main_v7 (idx_main_v8 (ridx_main_v9 (ix2 p n) k))) = ix2 n k :=
  funext fun a => Fin.ext (by
    have hn : n.val < 11008 := n.isLt
    have hk : k.val < 4096 := k.isLt
    match a with
    | ⟨0, _⟩ =>
      show (((n.val * 4096 + k.val) / 4096 * 32 + (n.val * 4096 + k.val) / 128 % 32) * 128 + (n.val * 4096 + k.val) % 128) / 4096 = n.val
      omega
    | ⟨1, _⟩ =>
      show (((n.val * 4096 + k.val) / 4096 * 32 + (n.val * 4096 + k.val) / 128 % 32) * 128 + (n.val * 4096 + k.val) % 128) % 4096 = k.val
      omega)

/-- ... and the scale of row `n`, group `k / 128`. -/
theorem scale_idx_eq (p : Fin 16) (n : Fin 11008) (k : Fin 4096) :
    idx_main_v4 (idx_main_v5 (idx_main_v7 (idx_main_v8 (ridx_main_v9 (ix2 p n) k)))) = ix2 n (grp k) :=
  funext fun a => Fin.ext (by
    have hn : n.val < 11008 := n.isLt
    have hk : k.val < 4096 := k.isLt
    match a with
    | ⟨0, _⟩ =>
      show (n.val * 4096 + k.val) / 4096 = n.val
      omega
    | ⟨1, _⟩ =>
      show (n.val * 4096 + k.val) / 128 % 32 = k.val / 128
      omega)

/-- The bias broadcast over the rows reads entry `n`. -/
theorem bias_idx_eq (p : Fin 16) (n : Fin 11008) :
    idx_main_v10 (idx_main_v11 (ix2 p n)) = ix1 n :=
  funext fun a => Fin.ext (by match a with | ⟨0, _⟩ => rfl)

/-- The reference's result is `x · wᵀ + bias` with `w` the dequantized weights, index by index. -/
theorem result_eq (X : (⟨S16x4096, .f32⟩ : BufTy).Contents (Elt Ideal)) (Q : (⟨S11008x4096, .i32⟩ : BufTy).Contents (Elt Ideal))
    (S : (⟨S11008x32, .f32⟩ : BufTy).Contents (Elt Ideal)) (B : (⟨S11008, .f32⟩ : BufTy).Contents (Elt Ideal)) :
    val_main_v12 (F := Ideal) X Q S B = out X Q S B := by
  funext i
  obtain ⟨p, n, rfl⟩ : ∃ (p : Fin 16) (n : Fin 11008), i = ix2 p n := ⟨i 0, i 1, eq_ix2 i⟩
  rw [out_ix2, val_main_v12_apply, val_main_v9_apply, val_main_v11_apply, val_main_v10_apply, bias_idx_eq]
  unfold outAt dotRow
  refine congrArg (· + B (ix1 n)) (Finset.sum_congr rfl fun k _ => ?_)
  rw [val_main_v8_apply, val_main_v7_apply, val_main_v6_apply, val_main_v3_apply, val_main_v2_apply, val_main_v0_apply,
    val_main_v1_apply, val_main_cst_apply, val_main_v5_apply, val_main_v4_apply, lidx_eq, code_idx_eq, scale_idx_eq]
  unfold weight
  rw [Ideal.ofBits_def, eight_f32]
  rfl

end Cert.ReferenceIdeal.Rows

end
-- ==== Proof.BlockRows.lean ====
/-
  What the kernel body computes, entry by entry of its block.

  At one grid point the body holds a block of 256 rows of codes (256 × 4096), their scales (256 × 32), all of `x`
  (16 × 4096) and the 256 bias entries of those rows (1 × 256). It centres the codes at 8, views each row as 32 groups of
  128, multiplies each group by its scale, views the rows flat again, contracts `x` with that block along the 4096 inputs
  into a zero accumulator, and adds the bias row to every row of the product. Read at `(p, r)` this is the dot product of
  row `p` of `x` with the dequantized row `r` of the block, plus bias entry `r`: flattening `(r, k)`, splitting the
  position as `(r, k / 128, k % 128)` and flattening again changes nothing, and the scale read there is that of group
  `k / 128`. Narrowing a float to 16 bits is the identity on extended reals, and a sum into zero is the sum.
-/
import proofs.«172426_j72997264163016_2_alg».proof.Proof.Gen.KernelIdeal.Skeleton
import proofs.«172426_j72997264163016_2_alg».proof.Proof.GroupedDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockRows

open Cert.KernelIdeal Cert.KernelIdeal.Gen Idealize.ShloMosaic Idealize.ShloMosaic.ValueIdx
open Cert.GroupedDot

/-- The contraction of the body: `[16, 4096] × [256, 4096] → [16, 256]` along the second axis of both. -/
abbrev D : DotDims S16x4096 S256x4096 S16x256 := dot_S16x4096_S256x4096_S16x256_1_1_0_0_n_n

/-- The left operand's row is the output's row. -/
theorem lhs_row (i : S16x256.Idx) (q : D.contr.Idx) : (D.lhsIdx i q 0).val = (i 0).val := by
  unfold DotDims.lhsIdx
  rw [dif_neg (show ¬(0 : Fin S16x4096.rank) ∈ D.lhsBatch by decide), dif_pos (show (0 : Fin S16x4096.rank) ∈ D.lhsNonContracting by decide)]
  rfl

/-- The right operand's row is the output's column. -/
theorem rhs_row (i : S16x256.Idx) (q : D.contr.Idx) : (D.rhsIdx i q 0).val = (i 1).val := by
  unfold DotDims.rhsIdx
  rw [dif_neg (show ¬(0 : Fin S256x4096.rank) ∈ D.rhsBatch by decide), dif_pos (show (0 : Fin S256x4096.rank) ∈ D.rhsNonContracting by decide)]
  rfl

/-- The product into a zero accumulator, at `(p, r)`: the sum over the 4096 inputs of `l[p, k] · w[r, k]`. -/
theorem matmul_rows (l : FVec Ideal S16x4096 .bf16) (w : FVec Ideal S256x4096 .bf16) (p : Fin 16) (r : Fin 256) :
    matmul D none l w (constant (F := Ideal) S16x256 .f32 0x00000000#32) (ix2 p r) = ∑ k : Fin 4096, l (ix2 p k) * w (ix2 r k) := by
  simp only [matmul]
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 p r) ((contrEquiv1 D 4096 rfl rfl).symm k) = ix2 p k := funext fun a => Fin.ext (by
    match a with
    | ⟨0, _⟩ => exact lhs_row _ _
    | ⟨1, _⟩ => exact (D.lhsIdx_val_of_single rfl _ _).trans hk)
  have er : D.rhsIdx (ix2 p r) ((contrEquiv1 D 4096 rfl rfl).symm k) = ix2 r k := funext fun a => Fin.ext (by
    match a with
    | ⟨0, _⟩ => exact rhs_row _ _
    | ⟨1, _⟩ => exact (D.rhsIdx_val_of_single rfl _ _).trans hk)
  rw [el, er]

/-- The dequantized block at `(r, k)`: the code of row `r`, input `k`, centred, times the scale of row `r`, group `k / 128`. -/
theorem deq_apply (v0 : IVec S256x4096 32) (v5 : FVec Ideal S256x32 .f32)
    (h1 : S256x4096.ShapeCasts S256x32x128) (h2 : S256x32.ShapeCasts S256x32x1) (h3 : S256x32x1.Broadcasts S256x32x128)
    (h4 : S256x32x128.ShapeCasts S256x4096) (hlt : FTy.bits .bf16 < FTy.bits .f32) (r : Fin 256) (k : Fin 4096) :
    shapeCast S256x4096 (mulf (shapeCast S256x32x128 (subf (sitofp (F := Ideal) .bf16 v0) (broadcast S256x4096 (Scalar.ofBits (F := Ideal) .bf16 0x4100#16))) h1)
        (broadcastTo S256x32x128 (shapeCast S256x32x1 (truncf .bf16 v5 hlt) h2) h3)) h4 (ix2 r k)
      = weight (fun k => v0 (ix2 r k)) (fun g => v5 (ix2 r g)) k := by
  have hk : k.val < 4096 := k.isLt
  have hr : r.val < 256 := r.isLt
  have hg : (grp k).val = k.val / 128 := rfl
  rw [shapeCast_apply _ h4 (ix2 r k) (ix3 r (grp k) (⟨k.val % 128, by omega⟩ : Fin 128)) (by
      rw [Shape.rowMajor_val_three, Shape.rowMajor_val_two]
      show (r.val * 32 + k.val / 128) * 128 + k.val % 128 = r.val * 4096 + k.val
      omega),
    mulf_apply,
    shapeCast_apply _ h1 (ix3 r (grp k) (⟨k.val % 128, by omega⟩ : Fin 128)) (ix2 r k) (by
      rw [Shape.rowMajor_val_three, Shape.rowMajor_val_two]
      show r.val * 4096 + k.val = (r.val * 32 + k.val / 128) * 128 + k.val % 128
      omega),
    subf_apply, sitofp_apply, broadcast_apply,
    broadcastTo_apply _ h3 (ix3 r (grp k) (⟨k.val % 128, by omega⟩ : Fin 128)) (ix3 r (grp k) (0 : Fin 1)) (fun a => by
      match a with
      | ⟨0, _⟩ => rfl
      | ⟨1, _⟩ => rfl
      | ⟨2, _⟩ => rfl),
    shapeCast_apply _ h2 (ix3 r (grp k) (0 : Fin 1)) (ix2 r (grp k)) (by
      rw [Shape.rowMajor_val_three, Shape.rowMajor_val_two]
      show r.val * 32 + k.val / 128 = (r.val * 32 + k.val / 128) * 1 + 0
      omega),
    truncf_apply]
  unfold weight
  show ((((v0 (ix2 r k)).toInt : ℝ) : EReal) - Ideal.ofBits .bf16 0x4100#16) * v5 (ix2 r (grp k)) = _
  rw [eight_bf16]

/-- The body's result at `(p, r)` of its block: row `p` of `x` against the dequantized row `r`, plus bias entry `r`. -/
theorem pay_apply (v0 : Vec Ideal S256x4096 .i32) (v5 : Vec Ideal S256x32 .f32) (v11 : Vec Ideal S16x4096 .f32) (v14 : Vec Ideal S1x256 .f32)
    (p : Fin 16) (r : Fin 256) :
    k0_pay1 (F := Ideal) v0 v5 v11 v14 (ix2 p r)
      = dotRow (fun k => v11 (ix2 p k)) (fun k => v0 (ix2 r k)) (fun g => v5 (ix2 r g)) + v14 (ix2 (0 : Fin 1) r) := by
  unfold k0_pay1
  rw [addf_apply, matmul_rows, broadcastTo_1b_ab_apply, shapeCast_self]
  unfold dotRow
  refine congrArg (· + v14 (ix2 (0 : Fin 1) r)) (Finset.sum_congr rfl fun k _ => ?_)
  rw [truncf_apply, deq_apply]

/-- The body's result is the block of the whole result: when the loaded blocks are all of `x`, rows `T · 256 …` of the codes
    and of the scales, and entries `T · 256 …` of the bias, the body's entry `y` is entry `(y₀, T · 256 + y₁)` of `x · wᵀ + bias`. -/
theorem block_entry (X : (⟨2, ![16, 4096]⟩ : Shape).Idx → EReal) (Q : (⟨2, ![11008, 4096]⟩ : Shape).Idx → BitVec 32)
    (S : (⟨2, ![11008, 32]⟩ : Shape).Idx → EReal) (B : (⟨1, ![11008]⟩ : Shape).Idx → EReal)
    (x0 : Vec Ideal S16x4096 .f32) (q0 : Vec Ideal S256x4096 .i32) (s0 : Vec Ideal S256x32 .f32) (b0 : Vec Ideal S1x256 .f32)
    (T : Nat) (hT : T < 43)
    (hx : ∀ (p : Fin 16) (k : Fin 4096), x0 (ix2 p k) = X (ix2 p k))
    (hq : ∀ (r : Fin 256) (k : Fin 4096), q0 (ix2 r k) = Q (ix2 (⟨T * 256 + r.val, by have := r.isLt; omega⟩ : Fin 11008) k))
    (hs : ∀ (r : Fin 256) (g : Fin 32), s0 (ix2 r g) = S (ix2 (⟨T * 256 + r.val, by have := r.isLt; omega⟩ : Fin 11008) g))
    (hb : ∀ (r : Fin 256), b0 (ix2 (0 : Fin 1) r) = B (ix1 (⟨T * 256 + r.val, by have := r.isLt; omega⟩ : Fin 11008)))
    (y : S16x256.Idx) (i : (⟨2, ![16, 11008]⟩ : Shape).Idx) (hi0 : (i 0).val = (y 0).val) (hi1 : (i 1).val = T * 256 + (y 1).val) :
    k0_pay1 (F := Ideal) q0 s0 x0 b0 y = out X Q S B i := by
  obtain ⟨p, r, rfl⟩ : ∃ (p : Fin 16) (r : Fin 256), y = ix2 p r := ⟨y 0, y 1, eq_ix2 y⟩
  obtain ⟨p', n, rfl⟩ : ∃ (p' : Fin 16) (n : Fin 11008), i = ix2 p' n := ⟨i 0, i 1, eq_ix2 i⟩
  have hp : p' = p := Fin.ext hi0
  have hn : n = (⟨T * 256 + r.val, by have := r.isLt; omega⟩ : Fin 11008) := Fin.ext hi1
  subst hp
  rw [hn, pay_apply, out_ix2]
  unfold outAt
  rw [dotRow_congr (hx p') (hq r) (hs r), hb r]

end Cert.KernelIdeal.BlockRows

end
-- ==== Proof.WholeArray.lean ====
/-
  From the blocks to the whole result.

  The grid has 43 points. At point `t` the kernel sees all of `x`, rows `256 t … 256 t + 255` of the codes and of the
  scales, entries `256 t … 256 t + 255` of the bias (the bias array viewed as one row of 11008), and writes back columns
  `256 t … 256 t + 255` of the result. Its body's entry `(p, r)` is therefore entry `(p, 256 t + r)` of `x · wᵀ + bias`
  (`BlockRows.block_entry`), so what point `t` writes back is block `t` of that one function; the 43 column blocks cover
  the 11008 columns (column `n` lies in block `n / 256`), and the array ends holding the function everywhere.
-/
import proofs.«172426_j72997264163016_2_alg».proof.Proof.Gen.KernelIdeal.Value
import proofs.«172426_j72997264163016_2_alg».proof.Proof.BlockRows
import Idealize.ShloMosaic.Lib.StableHlo.Run
import Idealize.ShloMosaic.Lib.ValueLayout

set_option maxRecDepth 16384

noncomputable section

namespace Cert.KernelIdeal.WholeArray

open Cert.KernelIdeal Cert.KernelIdeal.Gen Idealize.ShloMosaic Idealize.ShloMosaic.TcCoe Idealize.SL.Sem Idealize.ShloMosaic.ValueIdx
open Idealize.ShloMosaic.Pipeline (Dat)
open Cert.GroupedDot

variable (m : (ℓ : Loc nD τ sig) → Buf (Elt Ideal) ℓ) (ρ : Dev nD → PrngReg)

theorem zero_offsets : (![0, 0] : Fin 2 → Nat) = fun _ => 0 := funext fun a => by fin_cases a <;> rfl

/-- Where each window's block sits at grid point `t`: `x` whole; the codes and the scales at row block `t`; the bias row and
    the result at column block `t`. Decided over the 43 points. -/
theorem block_places : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

theorem point_lt (t : Fin cfg0.N) : t.val < 43 := t.isLt.trans_eq N_0

/-- The bias as the region finds it: the bias array viewed as one row. -/
theorem bias_row (c : Dev nD) :
    (V m c main_v0 : S1x11008.Idx → EReal) = shapeCast S1x11008 (m ((c : Thread nD τ).loc main_arg3)) shapeCasts_S11008_S1x11008 := by
  dsimp only [Gen.V, Gen.hostOps0]; after_results; rfl

/-- The block of `x` is all of `x`. -/
theorem x_read (c : Dev nD) (t : Fin cfg0.N) (p : Fin 16) (k : Fin 4096) :
    iblk m c 0 t (ix2 p k) = V m c main_arg0 (ix2 p k) := by
  obtain ⟨e00, e01, -⟩ := block_places t
  show V m c main_arg0 (((cfg0.win 0).blk t).view.emb (ix2 p k)) = V m c main_arg0 (ix2 p k)
  refine congrArg _ (funext fun a => Fin.ext ?_)
  match a with
  | ⟨0, _⟩ => show win0_0.index t (0 : Fin 2) * 16 + 1 * p.val = p.val; omega
  | ⟨1, _⟩ => show win0_0.index t (1 : Fin 2) * 4096 + 1 * k.val = k.val; omega

/-- Row `r` of the block of codes is row `256 t + r` of the codes. -/
theorem q_read (c : Dev nD) (t : Fin cfg0.N) (r : Fin 256) (k : Fin 4096) :
    iblk m c 1 t (ix2 r k) = V m c main_arg1 (ix2 (⟨t.val * 256 + r.val, by have := r.isLt; have := point_lt t; omega⟩ : Fin 11008) k) := by
  obtain ⟨-, -, e10, e11, -⟩ := block_places t
  show V m c main_arg1 (((cfg0.win 1).blk t).view.emb (ix2 r k)) = V m c main_arg1 _
  refine congrArg _ (funext fun a => Fin.ext ?_)
  match a with
  | ⟨0, _⟩ => show win0_1.index t (0 : Fin 2) * 256 + 1 * r.val = t.val * 256 + r.val; omega
  | ⟨1, _⟩ => show win0_1.index t (1 : Fin 2) * 4096 + 1 * k.val = k.val; omega

/-- Row `r` of the block of scales is row `256 t + r` of the scales. -/
theorem s_read (c : Dev nD) (t : Fin cfg0.N) (r : Fin 256) (g : Fin 32) :
    iblk m c 2 t (ix2 r g) = V m c main_arg2 (ix2 (⟨t.val * 256 + r.val, by have := r.isLt; have := point_lt t; omega⟩ : Fin 11008) g) := by
  obtain ⟨-, -, -, -, e20, e21, -⟩ := block_places t
  show V m c main_arg2 (((cfg0.win 2).blk t).view.emb (ix2 r g)) = V m c main_arg2 _
  refine congrArg _ (funext fun a => Fin.ext ?_)
  match a with
  | ⟨0, _⟩ => show win0_2.index t (0 : Fin 2) * 256 + 1 * r.val = t.val * 256 + r.val; omega
  | ⟨1, _⟩ => show win0_2.index t (1 : Fin 2) * 32 + 1 * g.val = g.val; omega

/-- Entry `r` of the block of the bias row is entry `256 t + r` of the bias. -/
theorem b_read (c : Dev nD) (t : Fin cfg0.N) (r : Fin 256) :
    iblk m c 3 t (ix2 (0 : Fin 1) r)
      = m ((c : Thread nD τ).loc main_arg3) (ix1 (⟨t.val * 256 + r.val, by have := r.isLt; have := point_lt t; omega⟩ : Fin 11008)) := by
  obtain ⟨-, -, -, -, -, -, e30, e31, -⟩ := block_places t
  have hpos : ((cfg0.win 3).blk t).view.emb (ix2 (0 : Fin 1) r)
      = ix2 (0 : Fin 1) (⟨t.val * 256 + r.val, by have := r.isLt; have := point_lt t; omega⟩ : Fin 11008) :=
    funext fun a => Fin.ext (by
      match a with
      | ⟨0, _⟩ => show win0_3.index t (0 : Fin 2) * 1 + 1 * 0 = 0; omega
      | ⟨1, _⟩ => show win0_3.index t (1 : Fin 2) * 256 + 1 * r.val = t.val * 256 + r.val; omega)
  show (V m c main_v0 : S1x11008.Idx → EReal) (((cfg0.win 3).blk t).view.emb (ix2 (0 : Fin 1) r)) = _
  rw [hpos, bias_row, shapeCast_a_1a_apply]

/-- What point `t` writes back is block `t` of `x · wᵀ + bias`. -/
theorem flushed_eq (c : Dev nD) (t : Fin cfg0.N) :
    (dats m 0 c).flushed 4 t = ((cfg0.win 4).blk t).view.read (Elt Ideal)
      (out (V m c main_arg0) (V m c main_arg1) (V m c main_arg2) (m ((c : Thread nD τ).loc main_arg3))) := by
  rw [Value.flushed4]
  unfold out0_4
  rw [View.canon_unit_zero zero_offsets]
  simp only [View.ld_unit_zero (S := S256x4096) zero_offsets, View.ld_unit_zero (S := S256x32) zero_offsets,
    View.ld_unit_zero (S := S16x4096) zero_offsets, View.ld_unit_zero (S := S1x256) zero_offsets]
  obtain ⟨-, -, -, -, -, -, -, -, e40, e41⟩ := block_places t
  funext j
  show k0_pay1 (F := Ideal) (iblk m c 1 t) (iblk m c 2 t) (iblk m c 0 t) (iblk m c 3 t) j
    = out (V m c main_arg0) (V m c main_arg1) (V m c main_arg2) (m ((c : Thread nD τ).loc main_arg3)) (((cfg0.win 4).blk t).view.emb j)
  refine BlockRows.block_entry _ _ _ _ _ _ _ _ t.val (point_lt t) (x_read m c t) (q_read m c t) (s_read m c t) (b_read m c t) j _ ?_ ?_
  · show win0_4.index t (0 : Fin 2) * 16 + 1 * (j 0).val = (j 0).val
    omega
  · show win0_4.index t (1 : Fin 2) * 256 + 1 * (j 1).val = t.val * 256 + (j 1).val
    omega

/-- An index of the result lies in point `t`'s block iff each coordinate is in the block's range on its axis. -/
theorem mem_blk (t : Fin cfg0.N) (i : S16x11008.Idx) :
    i ∈ ((cfg0.win 4).blk t).view.set ↔ ∀ a : Fin 2, win0_4.index t a * S16x256.size a ≤ (i a).val ∧ (i a).val < win0_4.index t a * S16x256.size a + S16x256.size a := by
  show i ∈ ((View.whole main_v1).slice (win0_4.rect t)).set ↔ _
  rw [View.set_slice_whole, Rect.mem_set_unit]
  exact Iff.rfl

/-- Every index of the result is in some point's block: column `n` is in block `n / 256`. -/
theorem cover (i : S16x11008.Idx) : ∃ t : Fin cfg0.N, (cfg0.win 4).flush t = true ∧ i ∈ ((cfg0.win 4).blk t).view.set := by
  have h0 : (i 0).val < 16 := (i 0).isLt
  have h1 : (i 1).val < 11008 := (i 1).isLt
  have hN : (i 1).val / 256 < cfg0.N := by rw [show cfg0.N = 43 from N_0]; omega
  obtain ⟨-, -, -, -, -, -, -, -, e40, e41⟩ := block_places ⟨(i 1).val / 256, hN⟩
  refine ⟨⟨(i 1).val / 256, hN⟩, flush0_4 _, ?_⟩
  rw [mem_blk]
  intro a
  match a with
  | ⟨0, _⟩ =>
    show win0_4.index ⟨(i 1).val / 256, hN⟩ (0 : Fin 2) * 16 ≤ (i 0).val ∧ (i 0).val < win0_4.index ⟨(i 1).val / 256, hN⟩ (0 : Fin 2) * 16 + 16
    omega
  | ⟨1, _⟩ =>
    show win0_4.index ⟨(i 1).val / 256, hN⟩ (1 : Fin 2) * 256 ≤ (i 1).val ∧ (i 1).val < win0_4.index ⟨(i 1).val / 256, hN⟩ (1 : Fin 2) * 256 + 256
    have e : win0_4.index ⟨(i 1).val / 256, hN⟩ (1 : Fin 2) = (i 1).val / 256 := e41
    omega

/-- The result array after the run is `x · wᵀ + bias` of the arrays as launched. -/
theorem final (c : Dev nD) :
    (dats m 0 c).arrAt 4 cfg0.N = out (m ((c : Thread nD τ).loc main_arg0)) (m ((c : Thread nD τ).loc main_arg1))
      (m ((c : Thread nD τ).loc main_arg2)) (m ((c : Thread nD τ).loc main_arg3)) := by
  have h := (dats m 0 c).arrAt_eq_of_cover 4
    (out (V m c main_arg0) (V m c main_arg1) (V m c main_arg2) (m ((c : Thread nD τ).loc main_arg3)))
    (fun t _ => flushed_eq m c t) cover
  rw [V_main_arg0, V_main_arg1, V_main_arg2] at h
  exact h

/-- The kernel's run: the result ends at `x · wᵀ + bias`, the arguments unchanged. -/
theorem run : θ_run defs (onTc (τ := τ) (main (F := Ideal))) ⟨m, fun _ => 0, ρ⟩ fun r => ∀ c : Dev nD,
      r.2.mem ((c : Thread nD τ).loc main_v1) = out (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.WholeArray

end
-- ==== Proof.lean ====
/-
  A linear layer whose weights are stored as 4-bit codes with one scale per row and per group of 128 inputs:
  `out[p, n] = Σ_k x[p, k] · ((q[n, k] - 8) · s[n, k / 128]) + bias[n]`, for 16 rows of `x`, 4096 inputs, 11008 outputs.

  The kernel walks the 11008 output columns in 43 blocks of 256. At each block it dequantizes the 256 rows of codes it
  holds, multiplies `x` by them into a zero accumulator, and adds the block's bias entries; the reference dequantizes the
  whole matrix, multiplies once and adds the bias. Over the extended reals, where converting a code to a float is
  exact whatever the float's width and a narrowing of a float is the identity, both compute the same sum of the same
  products for every entry, so no law of arithmetic beyond reading both programs at an index is needed, and the
  precondition (finite inputs) is not used by the value claim.

  `GroupedDot` states the function; `RefRows` reads the reference's operations at an index and finds it; `BlockRows` reads the
  kernel body at an entry of its block; `WholeArray` places the 43 blocks and covers the result. The three frames are the
  generated ones (the reference's is its generated run with the result dropped), and the idealization rewrote nothing.
-/
import proofs.«172426_j72997264163016_2_alg».proof.Defs
import proofs.«172426_j72997264163016_2_alg».proof.Proof.Gen.Kernel
import proofs.«172426_j72997264163016_2_alg».proof.Proof.Gen.Kernel.Frame
import proofs.«172426_j72997264163016_2_alg».proof.Proof.Gen.KernelIdeal
import proofs.«172426_j72997264163016_2_alg».proof.Proof.Gen.KernelIdeal.Frame
import proofs.«172426_j72997264163016_2_alg».proof.Proof.Gen.KernelIdeal.Value
import proofs.«172426_j72997264163016_2_alg».proof.Proof.Gen.ReferenceIdeal
import proofs.«172426_j72997264163016_2_alg».proof.Proof.Gen.ReferenceIdeal.Run
import proofs.«172426_j72997264163016_2_alg».proof.Proof.Gen.ReferenceIdeal.Read
import proofs.«172426_j72997264163016_2_alg».proof.Proof.Gen.Pre_finite_inputs
import proofs.«172426_j72997264163016_2_alg».proof.Proof.GroupedDot
import proofs.«172426_j72997264163016_2_alg».proof.Proof.RefRows
import proofs.«172426_j72997264163016_2_alg».proof.Proof.WholeArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories that agree on the four arrays, end with the result at `x · wᵀ + bias` of those arrays. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v12_eq _ _ _ _).trans (Cert.ReferenceIdeal.Rows.result_eq _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
